-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S7x1024x1536 : Shape := ⟨3, ![7, 1024, 1536]⟩
abbrev S7x1024 : Shape := ⟨2, ![7, 1024]⟩
abbrev S7x1024x1024 : Shape := ⟨3, ![7, 1024, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S7x1024x1536 : S_.BroadcastsInDim S7x1024x1536 (![] : Fin 0 → Fin S7x1024x1536.rank)
  reducesTo_S7x1024x1536_S_d0_1_2 : S7x1024x1536.ReducesTo [0, 1, 2] S_
  bcast_S_S7x1024 : S_.BroadcastsInDim S7x1024 (![] : Fin 0 → Fin S7x1024.rank)
  reducesTo_S7x1024_S_d0_1 : S7x1024.ReducesTo [0, 1] S_
  bcast_S_S7x1024x1024 : S_.BroadcastsInDim S7x1024x1024 (![] : Fin 0 → Fin S7x1024x1024.rank)
  reducesTo_S7x1024x1024_S_d0_1_2 : S7x1024x1024.ReducesTo [0, 1, 2] S_

variable [Facts]

def fn_part2 {F : FTy → Type} [FloatOps F] (main_arg7 : FVec F S7x1024 .f32) (main_v33 : IVec S_ 1) : IVec S_ 1 :=
  let main_v34 : FVec F S7x1024 .f32 := Host.absf main_arg7
  let main_cst_12 : FVec F S_ .f32 := constant S_ .f32 0x7F800000#32
  let main_v35 : FVec F S7x1024 .f32 := broadcastInDim S7x1024 ![] bcast_S_S7x1024 main_cst_12
  let main_v36 : IVec S7x1024 1 := cmpf .olt main_v34 main_v35
  let main_c_13 : IVec S_ 1 := constantI S_ 1 1#1
  let main_v37 : IVec S_ 1 := (fun x v => Host.reduce IntOp.andi x v reducesTo_S7x1024_S_d0_1 h_S_) main_v36 main_c_13
  let main_v38 : IVec S_ 1 := andi main_v33 main_v37
  main_v38

def fn_part1 {F : FTy → Type} [FloatOps F] (main_arg4 : FVec F S7x1024x1536 .f32) (main_arg5 : FVec F S7x1024 .f32) (main_arg6 : FVec F S7x1024x1024 .f32) (main_arg7 : FVec F S7x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S7x1024x1536 .f32 := Host.absf main_arg4
  let main_cst_6 : FVec F S_ .f32 := constant S_ .f32 0x7F800000#32
  let main_v20 : FVec F S7x1024x1536 .f32 := broadcastInDim S7x1024x1536 ![] bcast_S_S7x1024x1536 main_cst_6
  let main_v21 : IVec S7x1024x1536 1 := cmpf .olt main_v19 main_v20
  let main_c_7 : IVec S_ 1 := constantI S_ 1 1#1
  let main_v22 : IVec S_ 1 := (fun x v => Host.reduce IntOp.andi x v reducesTo_S7x1024x1536_S_d0_1_2 h_S_) main_v21 main_c_7
  let main_v23 : IVec S_ 1 := andi main_v18 main_v22
  let main_v24 : FVec F S7x1024 .f32 := Host.absf main_arg5
  let main_cst_8 : FVec F S_ .f32 := constant S_ .f32 0x7F800000#32
  let main_v25 : FVec F S7x1024 .f32 := broadcastInDim S7x1024 ![] bcast_S_S7x1024 main_cst_8
  let main_v26 : IVec S7x1024 1 := cmpf .olt main_v24 main_v25
  let main_c_9 : IVec S_ 1 := constantI S_ 1 1#1
  let main_v27 : IVec S_ 1 := (fun x v => Host.reduce IntOp.andi x v reducesTo_S7x1024_S_d0_1 h_S_) main_v26 main_c_9
  let main_v28 : IVec S_ 1 := andi main_v23 main_v27
  let main_v29 : FVec F S7x1024x1024 .f32 := Host.absf main_arg6
  let main_cst_10 : FVec F S_ .f32 := constant S_ .f32 0x7F800000#32
  let main_v30 : FVec F S7x1024x1024 .f32 := broadcastInDim S7x1024x1024 ![] bcast_S_S7x1024x1024 main_cst_10
  let main_v31 : IVec S7x1024x1024 1 := cmpf .olt main_v29 main_v30
  let main_c_11 : IVec S_ 1 := constantI S_ 1 1#1
  let main_v32 : IVec S_ 1 := (fun x v => Host.reduce IntOp.andi x v reducesTo_S7x1024x1024_S_d0_1_2 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S7x1024x1536 .f32) (main_arg5 : FVec F S7x1024 .f32) (main_arg6 : FVec F S7x1024x1024 .f32) (main_arg7 : FVec F S7x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_v13 main_v16
-- ==== Kernel.lean ====
abbrev S8192x512 : Shape := ⟨2, ![8192, 512]⟩
abbrev S8192x1024 : Shape := ⟨2, ![8192, 1024]⟩
abbrev S7x1024x1536 : Shape := ⟨3, ![7, 1024, 1536]⟩
abbrev S7x1024 : Shape := ⟨2, ![7, 1024]⟩
abbrev S7x1024x1024 : Shape := ⟨3, ![7, 1024, 1024]⟩
abbrev S8192x1536 : Shape := ⟨2, ![8192, 1536]⟩
abbrev S7x1536x1024 : Shape := ⟨3, ![7, 1536, 1024]⟩
abbrev S7x1x1024 : Shape := ⟨3, ![7, 1, 1024]⟩
abbrev S64x1536 : Shape := ⟨2, ![64, 1536]⟩
abbrev S64x1024 : Shape := ⟨2, ![64, 1024]⟩
abbrev S1x1536x1024 : Shape := ⟨3, ![1, 1536, 1024]⟩
abbrev S1536x1024 : Shape := ⟨2, ![1536, 1024]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 19
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S7x1024x1536, .f32⟩
  | .hbm, ⟨5, _⟩ => ⟨S7x1024, .f32⟩
  | .hbm, ⟨6, _⟩ => ⟨S7x1024x1024, .f32⟩
  | .hbm, ⟨7, _⟩ => ⟨S7x1024, .f32⟩
  | .hbm, ⟨8, _⟩ => ⟨S8192x1536, .f32⟩
  | .hbm, ⟨9, _⟩ => ⟨S8192x1536, .bf16⟩
  | .hbm, ⟨10, _⟩ => ⟨S7x1536x1024, .f32⟩
  | .hbm, ⟨11, _⟩ => ⟨S7x1536x1024, .bf16⟩
  | .hbm, ⟨12, _⟩ => ⟨S7x1024x1024, .bf16⟩
  | .hbm, ⟨13, _⟩ => ⟨S7x1x1024, .f32⟩
  | .hbm, ⟨14, _⟩ => ⟨S7x1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .local _ .vmem, ⟨0, _⟩ => ⟨S64x1536, .bf16⟩
  | .local _ .vmem, ⟨1, _⟩ => ⟨S64x1536, .bf16⟩
  | .local _ .vmem, ⟨2, _⟩ => ⟨S7x1536x1024, .bf16⟩
  | .local _ .vmem, ⟨3, _⟩ => ⟨S7x1x1024, .f32⟩
  | .local _ .vmem, ⟨4, _⟩ => ⟨S7x1024x1024, .bf16⟩
  | .local _ .vmem, ⟨5, _⟩ => ⟨S7x1x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S8192x512_S8192x1024_S8192x1536_d1 : Shape.Concatenates [S8192x512, S8192x1024] S8192x1536 1
  bitsLt_bf16_f32 : FTy.bits .bf16 < FTy.bits .f32
  transposes_S7x1024x1536_S7x1536x1024_0_2_1 : S7x1024x1536.Transposes [0, 2, 1] S7x1536x1024
  shapeCasts_S7x1024_S7x1x1024 : S7x1024.ShapeCasts S7x1x1024
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S7x1536x1024_S1x1536x1024_5_0_0 : ∀ a, (![5, 0, 0] : Fin 3 → Nat) a + S1x1536x1024.size a ≤ S7x1536x1024.size a
  h_S1x1536x1024 : 0 < S1x1536x1024.numel
  shapeCasts_S1x1536x1024_S1536x1024 : S1x1536x1024.ShapeCasts S1536x1024
  inb_S7x1x1024_S1x1x1024_5_0_0 : ∀ a, (![5, 0, 0] : Fin 3 → Nat) a + S1x1x1024.size a ≤ S7x1x1024.size a
  h_S1x1x1024 : 0 < S1x1x1024.numel
  shapeCasts_S1x1x1024_S1x1024 : S1x1x1024.ShapeCasts S1x1024
  inb_S7x1024x1024_S1x1024x1024_5_0_0 : ∀ a, (![5, 0, 0] : Fin 3 → Nat) a + S1x1024x1024.size a ≤ S7x1024x1024.size a
  h_S1x1024x1024 : 0 < S1x1024x1024.numel
  shapeCasts_S1x1024x1024_S1024x1024 : S1x1024x1024.ShapeCasts S1024x1024
  broadcasts_S1x1024_S64x1024 : S1x1024.Broadcasts S64x1024
  inb_S7x1536x1024_S1x1536x1024_1_0_0 : ∀ a, (![1, 0, 0] : Fin 3 → Nat) a + S1x1536x1024.size a ≤ S7x1536x1024.size a
  inb_S7x1x1024_S1x1x1024_1_0_0 : ∀ a, (![1, 0, 0] : Fin 3 → Nat) a + S1x1x1024.size a ≤ S7x1x1024.size a
  inb_S7x1024x1024_S1x1024x1024_1_0_0 : ∀ a, (![1, 0, 0] : Fin 3 → Nat) a + S1x1024x1024.size a ≤ S7x1024x1024.size a
  inb_S7x1536x1024_S1x1536x1024_0_0_0 : ∀ a, (![0, 0, 0] : Fin 3 → Nat) a + S1x1536x1024.size a ≤ S7x1536x1024.size a
  inb_S7x1x1024_S1x1x1024_0_0_0 : ∀ a, (![0, 0, 0] : Fin 3 → Nat) a + S1x1x1024.size a ≤ S7x1x1024.size a
  inb_S7x1024x1024_S1x1024x1024_0_0_0 : ∀ a, (![0, 0, 0] : Fin 3 → Nat) a + S1x1024x1024.size a ≤ S7x1024x1024.size a
  inb_S64x1024_S64x1024_0_0 : ∀ a, (![0, 0] : Fin 2 → Nat) a + S64x1024.size a ≤ S64x1024.size a
  h_S64x1024 : 0 < S64x1024.numel
  inb_S7x1536x1024_S1x1536x1024_3_0_0 : ∀ a, (![3, 0, 0] : Fin 3 → Nat) a + S1x1536x1024.size a ≤ S7x1536x1024.size a
  inb_S7x1x1024_S1x1x1024_3_0_0 : ∀ a, (![3, 0, 0] : Fin 3 → Nat) a + S1x1x1024.size a ≤ S7x1x1024.size a
  inb_S7x1024x1024_S1x1024x1024_3_0_0 : ∀ a, (![3, 0, 0] : Fin 3 → Nat) a + S1x1024x1024.size a ≤ S7x1024x1024.size a
  inb_S7x1536x1024_S1x1536x1024_2_0_0 : ∀ a, (![2, 0, 0] : Fin 3 → Nat) a + S1x1536x1024.size a ≤ S7x1536x1024.size a
  inb_S7x1x1024_S1x1x1024_2_0_0 : ∀ a, (![2, 0, 0] : Fin 3 → Nat) a + S1x1x1024.size a ≤ S7x1x1024.size a
  inb_S7x1024x1024_S1x1024x1024_2_0_0 : ∀ a, (![2, 0, 0] : Fin 3 → Nat) a + S1x1024x1024.size a ≤ S7x1024x1024.size a
  inb_S7x1536x1024_S1x1536x1024_4_0_0 : ∀ a, (![4, 0, 0] : Fin 3 → Nat) a + S1x1536x1024.size a ≤ S7x1536x1024.size a
  inb_S7x1x1024_S1x1x1024_4_0_0 : ∀ a, (![4, 0, 0] : Fin 3 → Nat) a + S1x1x1024.size a ≤ S7x1x1024.size a
  inb_S7x1024x1024_S1x1024x1024_4_0_0 : ∀ a, (![4, 0, 0] : Fin 3 → Nat) a + S1x1024x1024.size a ≤ S7x1024x1024.size a
  inb_S7x1536x1024_S1x1536x1024_6_0_0 : ∀ a, (![6, 0, 0] : Fin 3 → Nat) a + S1x1536x1024.size a ≤ S7x1536x1024.size a
  inb_S7x1x1024_S1x1x1024_6_0_0 : ∀ a, (![6, 0, 0] : Fin 3 → Nat) a + S1x1x1024.size a ≤ S7x1x1024.size a
  inb_S7x1024x1024_S1x1024x1024_6_0_0 : ∀ a, (![6, 0, 0] : Fin 3 → Nat) a + S1x1024x1024.size a ≤ S7x1024x1024.size a
  dot_S64x1536_S1536x1024_S64x1024_1_0_0_1_n_n_wf : DotDims.WF S64x1536 S1536x1024 S64x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1536.size a ≤ S8192x1536.size a
  hwx0_0 : ∀ i : grid0.Coords, EltTy.bits .bf16 = 32 ∨ (Rect.block (s := S8192x1536) S64x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x1536x1024.size a ≤ S7x1536x1024.size a
  hwx0_1 : ∀ i : grid0.Coords, EltTy.bits .bf16 = 32 ∨ (Rect.block (s := S7x1536x1024) S7x1536x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x1x1024.size a ≤ S7x1x1024.size a
  hwx0_2 : ∀ i : grid0.Coords, EltTy.bits .f32 = 32 ∨ (Rect.block (s := S7x1x1024) S7x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x1024x1024.size a ≤ S7x1024x1024.size a
  hwx0_3 : ∀ i : grid0.Coords, EltTy.bits .bf16 = 32 ∨ (Rect.block (s := S7x1024x1024) S7x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1x1024.size a ≤ S7x1x1024.size a
  hwx0_4 : ∀ i : grid0.Coords, EltTy.bits .f32 = 32 ∨ (Rect.block (s := S7x1x1024) S7x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S8192x1024.size a
  hwx0_5 : ∀ i : grid0.Coords, EltTy.bits .f32 = 32 ∨ (Rect.block (s := S8192x1024) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S8192x1024.size a
  hwx0_6 : ∀ i : grid0.Coords, EltTy.bits .f32 = 32 ∨ (Rect.block (s := S8192x1024) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S8192x1024.size a
  hwx0_7 : ∀ i : grid0.Coords, EltTy.bits .f32 = 32 ∨ (Rect.block (s := S8192x1024) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S8192x1024.size a
  hwx0_8 : ∀ i : grid0.Coords, EltTy.bits .f32 = 32 ∨ (Rect.block (s := S8192x1024) S64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1024.size a ≤ S8192x1024.size a
  hwx0_9 : ∀ i : grid0.Coords, EltTy.bits .f32 = 32 ∨ (Rect.block (s := S8192x1024) S64x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S8192x1024.size a
  hwx0_10 : ∀ i : grid0.Coords, EltTy.bits .f32 = 32 ∨ (Rect.block (s := S8192x1024) S64x1024.size (cc0_transform_10 i) (hinb0_10 i)).WholeWords (EltTy.packing .f32)

variable [Facts₀]

def dot_S64x1536_S1536x1024_S64x1024_1_0_0_1_n_n : DotDims S64x1536 S1536x1024 S64x1024 where
  lhsContracting := [1]
  rhsContracting := [0]
  lhsNonContracting := [0]
  rhsNonContracting := [1]
  lhsBatch := []
  rhsBatch := []
  wf := dot_S64x1536_S1536x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v1) S64x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S7x1536x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S7x1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S7x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S7x1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S64x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S64x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_3) S64x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S7x1024x1536 : Shape := ⟨3, ![7, 1024, 1536]⟩
abbrev S7x1024 : Shape := ⟨2, ![7, 1024]⟩
abbrev S7x1024x1024 : Shape := ⟨3, ![7, 1024, 1024]⟩
abbrev S8192x1536 : Shape := ⟨2, ![8192, 1536]⟩
abbrev S7x1024x8192 : Shape := ⟨3, ![7, 1024, 8192]⟩
abbrev S7x8192x1024 : Shape := ⟨3, ![7, 8192, 1024]⟩
abbrev S7x1x1024 : Shape := ⟨3, ![7, 1, 1024]⟩
abbrev S1x8192x1024 : Shape := ⟨3, ![1, 8192, 1024]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S7x1024x1536, .f32⟩
  | .hbm, ⟨5, _⟩ => ⟨S7x1024, .f32⟩
  | .hbm, ⟨6, _⟩ => ⟨S7x1024x1024, .f32⟩
  | .hbm, ⟨7, _⟩ => ⟨S7x1024, .f32⟩
  | .hbm, ⟨8, _⟩ => ⟨S8192x1536, .f32⟩
  | .hbm, ⟨9, _⟩ => ⟨S7x1024x8192, .f32⟩
  | .hbm, ⟨10, _⟩ => ⟨S7x8192x1024, .f32⟩
  | .hbm, ⟨11, _⟩ => ⟨S7x1x1024, .f32⟩
  | .hbm, ⟨12, _⟩ => ⟨S7x8192x1024, .f32⟩
  | .hbm, ⟨13, _⟩ => ⟨S7x8192x1024, .f32⟩
  | .hbm, ⟨14, _⟩ => ⟨S7x8192x1024, .f32⟩
  | .hbm, ⟨15, _⟩ => ⟨S7x8192x1024, .f32⟩
  | .hbm, ⟨16, _⟩ => ⟨S7x1x1024, .f32⟩
  | .hbm, ⟨17, _⟩ => ⟨S7x8192x1024, .f32⟩
  | .hbm, ⟨18, _⟩ => ⟨S7x8192x1024, .f32⟩
  | .hbm, ⟨19, _⟩ => ⟨S1x8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1x8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S1x8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S1x8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1x8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S1x8192x1024, .f32⟩
  | .hbm, ⟨70, _⟩ => ⟨S8192x1024, .f32⟩
  | .hbm, ⟨71, _⟩ => ⟨S8192x1024, .f32⟩
  | .hbm, ⟨72, _⟩ => ⟨S1x8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .i1⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  concatenates_S8192x512_S8192x1024_S8192x1536_d1 : Shape.Concatenates [S8192x512, S8192x1024] S8192x1536 1
  transposes_S7x1024x8192_S7x8192x1024_0_2_1 : S7x1024x8192.Transposes [0, 2, 1] S7x8192x1024
  bcast_S7x1024_S7x1x1024_0_2 : S7x1024.BroadcastsInDim S7x1x1024 (![0, 2] : Fin 2 → Fin S7x1x1024.rank)
  bcast_S7x1x1024_S7x8192x1024_0_1_2 : S7x1x1024.BroadcastsInDim S7x8192x1024 (![0, 1, 2] : Fin 3 → Fin S7x8192x1024.rank)
  slices_S7x8192x1024_S1x8192x1024_0_0_0 : S7x8192x1024.Slices ![0, 0, 0] S1x8192x1024
  shapeCasts_S1x8192x1024_S8192x1024 : S1x8192x1024.ShapeCasts S8192x1024
  bcast_S_S8192x1024 : S_.BroadcastsInDim S8192x1024 (![] : Fin 0 → Fin S8192x1024.rank)
  slices_S7x8192x1024_S1x8192x1024_1_0_0 : S7x8192x1024.Slices ![1, 0, 0] S1x8192x1024
  slices_S7x8192x1024_S1x8192x1024_2_0_0 : S7x8192x1024.Slices ![2, 0, 0] S1x8192x1024
  slices_S7x8192x1024_S1x8192x1024_3_0_0 : S7x8192x1024.Slices ![3, 0, 0] S1x8192x1024
  slices_S7x8192x1024_S1x8192x1024_4_0_0 : S7x8192x1024.Slices ![4, 0, 0] S1x8192x1024
  slices_S7x8192x1024_S1x8192x1024_5_0_0 : S7x8192x1024.Slices ![5, 0, 0] S1x8192x1024
  slices_S7x8192x1024_S1x8192x1024_6_0_0 : S7x8192x1024.Slices ![6, 0, 0] S1x8192x1024
  dot_S7x1024x1536_S8192x1536_S7x1024x8192_2_1_01_0_n_n_wf : DotDims.WF S7x1024x1536 S8192x1536 S7x1024x8192 [2] [1] [0, 1] [0] [] []
  dot_S7x8192x1024_S7x1024x1024_S7x8192x1024_2_1_1_2_0_0_wf : DotDims.WF S7x8192x1024 S7x1024x1024 S7x8192x1024 [2] [1] [1] [2] [0] [0]

variable [Facts₀]

def dot_S7x1024x1536_S8192x1536_S7x1024x8192_2_1_01_0_n_n : DotDims S7x1024x1536 S8192x1536 S7x1024x8192 where
  lhsContracting := [2]
  rhsContracting := [1]
  lhsNonContracting := [0, 1]
  rhsNonContracting := [0]
  lhsBatch := []
  rhsBatch := []
  wf := dot_S7x1024x1536_S8192x1536_S7x1024x8192_2_1_01_0_n_n_wf
def dot_S7x8192x1024_S7x1024x1024_S7x8192x1024_2_1_1_2_0_0 : DotDims S7x8192x1024 S7x1024x1024 S7x8192x1024 where
  lhsContracting := [2]
  rhsContracting := [1]
  lhsNonContracting := [1]
  rhsNonContracting := [2]
  lhsBatch := [0]
  rhsBatch := [0]
  wf := dot_S7x8192x1024_S7x1024x1024_S7x8192x1024_2_1_1_2_0_0_wf

class Facts : Prop extends Facts₀ where

variable [Facts]
-- ==== Proof.GateSpec.lean ====
/-
  The gated recurrent cell, as functions of its arrays over the extended reals.

  The cell has seven gates. Gate g is a two-layer perceptron applied to each row r of the joined input v (8192 rows of
  1536 entries): the hidden layer is  t(g, r, h) = tanh (Σ_d W1(g, h, d) · v(r, d) + b1(g, h))  for the 1024 hidden
  units h, and the gate's pre-activation at output unit k is  pre(g, r, k) = Σ_h t(g, r, h) · W2(g, h, k) + b2(g, k).
  From the seven pre-activations the cell forms four arrays, entry by entry:
    new cell state     σ(pre 1) · c + σ(pre 0) · tanh (pre 5)
    new target state   σ(pre 3) · c' + σ(pre 2) · tanh (pre 5)
    output gate        σ(pre 4)
    decay              softplus (pre 6)
  with σ(x) = 1 / (1 + e^(-x)) and softplus(x) = max(x, 0) + log(1 + e^(-|x|)).
  Also here: the two spellings of σ and of softplus that the programs use are these functions on every extended real.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.GateCell

open Idealize.ShloMosaic Idealize.ShloMosaic.ValueIdx

/-- The pre-activation of gate `g` for row `r` at output unit `k`: the second layer's sum over the hidden units of
    the hidden activations times the second weights, plus the second bias. -/
def pre (v : (⟨2, ![8192, 1536]⟩ : Shape).Idx → EReal) (W1 : (⟨3, ![7, 1024, 1536]⟩ : Shape).Idx → EReal)
    (b1 : (⟨2, ![7, 1024]⟩ : Shape).Idx → EReal) (W2 : (⟨3, ![7, 1024, 1024]⟩ : Shape).Idx → EReal)
    (b2 : (⟨2, ![7, 1024]⟩ : Shape).Idx → EReal) (g : Fin 7) (r : Fin 8192) (k : Fin 1024) : EReal :=
  (∑ h : Fin 1024, Ideal.tanh ((∑ d : Fin 1536, W1 (ix3 g h d) * v (ix2 r d)) + b1 (ix2 g h)) * W2 (ix3 g h k))
    + b2 (ix2 g k)

/-- softplus(x) = max(x, 0) + log(1 + e^(-|x|)), with |x| = max(x, -x). -/
def softplus (x : EReal) : EReal := max x 0 + Ideal.log1p (Ideal.exp (-(max x (-x))))

/-- A state update: forget gate times the old state plus input gate times the candidate, the gates' pre-activations
    numbered `gf` and `gi`, the candidate tanh of pre-activation 5. -/
def stateUpdate (gf gi : Fin 7) (v : (⟨2, ![8192, 1536]⟩ : Shape).Idx → EReal) (W1 : (⟨3, ![7, 1024, 1536]⟩ : Shape).Idx → EReal)
    (b1 : (⟨2, ![7, 1024]⟩ : Shape).Idx → EReal) (W2 : (⟨3, ![7, 1024, 1024]⟩ : Shape).Idx → EReal)
    (b2 : (⟨2, ![7, 1024]⟩ : Shape).Idx → EReal) (c : (⟨2, ![8192, 1024]⟩ : Shape).Idx → EReal)
    (i : (⟨2, ![8192, 1024]⟩ : Shape).Idx) : EReal :=
  Ideal.logistic (pre v W1 b1 W2 b2 gf (i 0) (i 1)) * c i
    + Ideal.logistic (pre v W1 b1 W2 b2 gi (i 0) (i 1)) * Ideal.tanh (pre v W1 b1 W2 b2 5 (i 0) (i 1))

/-- The output gate: σ of pre-activation 4. -/
def outGate (v : (⟨2, ![8192, 1536]⟩ : Shape).Idx → EReal) (W1 : (⟨3, ![7, 1024, 1536]⟩ : Shape).Idx → EReal)
    (b1 : (⟨2, ![7, 1024]⟩ : Shape).Idx → EReal) (W2 : (⟨3, ![7, 1024, 1024]⟩ : Shape).Idx → EReal)
    (b2 : (⟨2, ![7, 1024]⟩ : Shape).Idx → EReal) (i : (⟨2, ![8192, 1024]⟩ : Shape).Idx) : EReal :=
  Ideal.logistic (pre v W1 b1 W2 b2 4 (i 0) (i 1))

/-- The decay: softplus of pre-activation 6. -/
def decay (v : (⟨2, ![8192, 1536]⟩ : Shape).Idx → EReal) (W1 : (⟨3, ![7, 1024, 1536]⟩ : Shape).Idx → EReal)
    (b1 : (⟨2, ![7, 1024]⟩ : Shape).Idx → EReal) (W2 : (⟨3, ![7, 1024, 1024]⟩ : Shape).Idx → EReal)
    (b2 : (⟨2, ![7, 1024]⟩ : Shape).Idx → EReal) (i : (⟨2, ![8192, 1024]⟩ : Shape).Idx) : EReal :=
  softplus (pre v W1 b1 W2 b2 6 (i 0) (i 1))

/-! ## The programs' spellings of σ and softplus -/

/-- The float word of 1.0 denotes the real 1. -/
theorem one_word : Ideal.ofBits .f32 0x3F800000#32 = 1 := IdealRules.sign_bit.ideal_onePat .f32

/-- σ spelt as a quotient, `1 / (1 + e^(-x))` with both ones the float word 1.0, is σ. -/
theorem quotient_sigmoid (x : EReal) :
    Ideal.div (Ideal.ofBits .f32 0x3F800000#32) (Ideal.ofBits .f32 0x3F800000#32 + Ideal.exp (-x)) = Ideal.logistic x := by
  rw [one_word]; rfl

/-- An extended real never differs from itself, so a guard "x ≠ x" is off. -/
theorem cmp_ne_self (p : CmpFPredicate) (hp : p = .one ∨ p = .une) (d : EReal) : Ideal.cmp p d d = 0#1 := by
  rcases hp with rfl | rfl <;> simp [Ideal.cmp]

/-- softplus spelt with the guard on `x - 0`, the zero the float word 0.0, and `-|x - 0|` as a negation. -/
theorem guarded_softplus_neg (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = softplus x := by
  rw [cmp_ne_self _ (.inr rfl), select_zero, Ideal.ofBits_zero_f32, sub_zero]; rfl

/-- softplus spelt with the guard on `x - 0` and `-|x - 0|` as `0 - |x - 0|`. -/
theorem guarded_softplus_sub (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = softplus x := by
  rw [cmp_ne_self _ (.inl rfl), select_zero, Ideal.ofBits_zero_f32, sub_zero, zero_sub]; rfl

end Cert.GateCell

end
-- ==== Proof.RefCell.lean ====
/-
  The reference program's four results are the cell's four functions of its arguments.

  The reference computes all seven gates at once: one contraction of the first weights with the joined input gives the
  hidden pre-activations for every (gate, hidden unit, row), which it transposes to (gate, row, hidden unit), adds the
  first bias to, and passes through tanh; a second contraction, batched over the gate, with the second weights gives the
  stacked pre-activations, to which it adds the second bias. Gate g's pre-activation is then slice g of that stack, and
  the results are built from the slices entry by entry, σ spelt as the quotient 1 / (1 + e^(-x)) and softplus with a
  guard that is never on. Read at an index, every one of these steps names one entry of its operands, so the stack at
  (g, r, k) is the double sum `pre` and each result is its function of the specification.
-/
import proofs.«162500_j74938589381016_2_alg».proof.Proof.Gen.ReferenceIdeal.Read
import proofs.«162500_j74938589381016_2_alg».proof.Proof.GateSpec

noncomputable section

open scoped BigOperators

namespace Cert.ReferenceIdeal.Cell

open Cert.ReferenceIdeal Cert.ReferenceIdeal.Read Cert.GateCell Idealize.ShloMosaic Idealize.ShloMosaic.ValueIdx

variable (x0 : (⟨S8192x512, .f32⟩ : BufTy).Contents (Elt Ideal)) (x1 x2 x3 : (⟨S8192x1024, .f32⟩ : BufTy).Contents (Elt Ideal))
  (x4 : (⟨S7x1024x1536, .f32⟩ : BufTy).Contents (Elt Ideal)) (x5 : (⟨S7x1024, .f32⟩ : BufTy).Contents (Elt Ideal))
  (x6 : (⟨S7x1024x1024, .f32⟩ : BufTy).Contents (Elt Ideal)) (x7 : (⟨S7x1024, .f32⟩ : BufTy).Contents (Elt Ideal))

/-- The stacked pre-activation array at (g, r, k) is the pre-activation of gate g for row r at unit k: the second
    contraction runs over the hidden units h of (g, r, h) against (g, h, k); the hidden activation at (g, r, h) is tanh
    of the transposed first contraction, which runs over d of the first weights at (g, h, d) against the joined input at
    (r, d), plus the first bias at (g, h). -/
theorem pre_eq (g : Fin 7) (r : Fin 8192) (k : Fin 1024) :
    val_main_v10 (F := Ideal) x0 x1 x4 x5 x6 x7 (ix3 g r k)
      = pre (val_main_v0 (F := Ideal) x0 x1) x4 x5 x6 x7 g r k := by
  rw [val_main_v10_apply, val_main_v7_apply, val_main_v9_apply, val_main_v8_apply]
  unfold pre
  refine congrArg₂ (· + ·) (Finset.sum_congr rfl fun h _ => ?_) ?_
  · rw [val_main_v6_apply, val_main_v5_apply, val_main_v2_apply, val_main_v1_apply, val_main_v4_apply, val_main_v3_apply]
    have e1 : ∀ d, lidx_main_v1 (idx_main_v2 (lidx_main_v7 (ix3 g r k) h)) d = ix3 g h d := fun d => funext fun a => match a with | ⟨0, _⟩ => rfl | ⟨1, _⟩ => rfl | ⟨2, _⟩ => rfl
    have e2 : ∀ d, ridx_main_v1 (idx_main_v2 (lidx_main_v7 (ix3 g r k) h)) d = ix2 r d := fun d => funext fun a => match a with | ⟨0, _⟩ => rfl | ⟨1, _⟩ => rfl
    have e3 : idx_main_v3 (idx_main_v4 (lidx_main_v7 (ix3 g r k) h)) = ix2 g h := funext fun a => match a with | ⟨0, _⟩ => rfl | ⟨1, _⟩ => rfl
    have e4 : ridx_main_v7 (ix3 g r k) h = ix3 g h k := funext fun a => match a with | ⟨0, _⟩ => rfl | ⟨1, _⟩ => rfl | ⟨2, _⟩ => rfl
    simp only [e1, e2, e3, e4]
    rfl
  · exact congrArg x7 (funext fun a => match a with | ⟨0, _⟩ => rfl | ⟨1, _⟩ => rfl)

/-! ## Each gate's slice of the stack -/

/-- Slice 0 of the stack, as a matrix, is gate 0's pre-activation. -/
theorem gate0_pre (r : Fin 8192) (k : Fin 1024) :
    val_main_v12 (F := Ideal) x0 x1 x4 x5 x6 x7 (ix2 r k) = pre (val_main_v0 (F := Ideal) x0 x1) x4 x5 x6 x7 0 r k := by
  rw [val_main_v12_apply, val_main_v11_apply]
  have e : idx_main_v11 (idx_main_v12 (ix2 r k)) = ix3 (0 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 0 r k

/-- Slice 1 of the stack, as a matrix, is gate 1's pre-activation. -/
theorem gate1_pre (r : Fin 8192) (k : Fin 1024) :
    val_main_v20 (F := Ideal) x0 x1 x4 x5 x6 x7 (ix2 r k) = pre (val_main_v0 (F := Ideal) x0 x1) x4 x5 x6 x7 1 r k := by
  rw [val_main_v20_apply, val_main_v19_apply]
  have e : idx_main_v19 (idx_main_v20 (ix2 r k)) = ix3 (1 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 1 r k

/-- Slice 2 of the stack, as a matrix, is gate 2's pre-activation. -/
theorem gate2_pre (r : Fin 8192) (k : Fin 1024) :
    val_main_v28 (F := Ideal) x0 x1 x4 x5 x6 x7 (ix2 r k) = pre (val_main_v0 (F := Ideal) x0 x1) x4 x5 x6 x7 2 r k := by
  rw [val_main_v28_apply, val_main_v27_apply]
  have e : idx_main_v27 (idx_main_v28 (ix2 r k)) = ix3 (2 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 2 r k

/-- Slice 3 of the stack, as a matrix, is gate 3's pre-activation. -/
theorem gate3_pre (r : Fin 8192) (k : Fin 1024) :
    val_main_v36 (F := Ideal) x0 x1 x4 x5 x6 x7 (ix2 r k) = pre (val_main_v0 (F := Ideal) x0 x1) x4 x5 x6 x7 3 r k := by
  rw [val_main_v36_apply, val_main_v35_apply]
  have e : idx_main_v35 (idx_main_v36 (ix2 r k)) = ix3 (3 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 3 r k

/-- Slice 4 of the stack, as a matrix, is gate 4's pre-activation. -/
theorem gate4_pre (r : Fin 8192) (k : Fin 1024) :
    val_main_v44 (F := Ideal) x0 x1 x4 x5 x6 x7 (ix2 r k) = pre (val_main_v0 (F := Ideal) x0 x1) x4 x5 x6 x7 4 r k := by
  rw [val_main_v44_apply, val_main_v43_apply]
  have e : idx_main_v43 (idx_main_v44 (ix2 r k)) = ix3 (4 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 4 r k

/-- Slice 5 of the stack, as a matrix, is gate 5's pre-activation. -/
theorem gate5_pre (r : Fin 8192) (k : Fin 1024) :
    val_main_v52 (F := Ideal) x0 x1 x4 x5 x6 x7 (ix2 r k) = pre (val_main_v0 (F := Ideal) x0 x1) x4 x5 x6 x7 5 r k := by
  rw [val_main_v52_apply, val_main_v51_apply]
  have e : idx_main_v51 (idx_main_v52 (ix2 r k)) = ix3 (5 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 5 r k

/-- Slice 6 of the stack, as a matrix, is gate 6's pre-activation. -/
theorem gate6_pre (r : Fin 8192) (k : Fin 1024) :
    val_main_v55 (F := Ideal) x0 x1 x4 x5 x6 x7 (ix2 r k) = pre (val_main_v0 (F := Ideal) x0 x1) x4 x5 x6 x7 6 r k := by
  rw [val_main_v55_apply, val_main_v54_apply]
  have e : idx_main_v54 (idx_main_v55 (ix2 r k)) = ix3 (6 : Fin 7) r k := funext fun a => Fin.ext (by
    have hr := r.isLt
    have hk := k.isLt
    match a with
    | ⟨0, _⟩ => rfl
    | ⟨1, _⟩ => show (r.val * 1024 + k.val) / 1024 % 8192 = r.val; omega
    | ⟨2, _⟩ => show (r.val * 1024 + k.val) % 1024 = k.val; omega)
  rw [e]
  exact pre_eq x0 x1 x4 x5 x6 x7 6 r k

/-! ## The gates' activations -/

/-- The quotient 1 / (1 + e^(-x)) of gate 0's pre-activation is σ of it. -/
theorem gate0_sigmoid (r : Fin 8192) (k : Fin 1024) :
    val_main_v18 (F := Ideal) x0 x1 x4 x5 x6 x7 (ix2 r k) = Ideal.logistic (pre (val_main_v0 (F := Ideal) x0 x1) x4 x5 x6 x7 0 r k) := by
  rw [val_main_v18_apply, val_main_v17_apply, val_main_cst_0_apply, val_main_v16_apply, val_main_v15_apply,
    val_main_cst_apply, val_main_v14_apply, val_main_v13_apply, gate0_pre]
  exact quotient_sigmoid _

/-- The quotient 1 / (1 + e^(-x)) of gate 1's pre-activation is σ of it. -/
theorem gate1_sigmoid (r : Fin 8192) (k : Fin 1024) :
    val_main_v26 (F := Ideal) x0 x1 x4 x5 x6 x7 (ix2 r k) = Ideal.logistic (pre (val_main_v0 (F := Ideal) x0 x1) x4 x5 x6 x7 1 r k) := by
  rw [val_main_v26_apply, val_main_v25_apply, val_main_cst_2_apply, val_main_v24_apply, val_main_v23_apply,
    val_main_cst_1_apply, val_main_v22_apply, val_main_v21_apply, gate1_pre]
  exact quotient_sigmoid _

/-- The quotient 1 / (1 + e^(-x)) of gate 2's pre-activation is σ of it. -/
theorem gate2_sigmoid (r : Fin 8192) (k : Fin 1024) :
    val_main_v34 (F := Ideal) x0 x1 x4 x5 x6 x7 (ix2 r k) = Ideal.logistic (pre (val_main_v0 (F := Ideal) x0 x1) x4 x5 x6 x7 2 r k) := by
  rw [val_main_v34_apply, val_main_v33_apply, val_main_cst_4_apply, val_main_v32_apply, val_main_v31_apply,
    val_main_cst_3_apply, val_main_v30_apply, val_main_v29_apply, gate2_pre]
  exact quotient_sigmoid _

/-- The quotient 1 / (1 + e^(-x)) of gate 3's pre-activation is σ of it. -/
theorem gate3_sigmoid (r : Fin 8192) (k : Fin 1024) :
    val_main_v42 (F := Ideal) x0 x1 x4 x5 x6 x7 (ix2 r k) = Ideal.logistic (pre (val_main_v0 (F := Ideal) x0 x1) x4 x5 x6 x7 3 r k) := by
  rw [val_main_v42_apply, val_main_v41_apply, val_main_cst_6_apply, val_main_v40_apply, val_main_v39_apply,
    val_main_cst_5_apply, val_main_v38_apply, val_main_v37_apply, gate3_pre]
  exact quotient_sigmoid _

/-- The quotient 1 / (1 + e^(-x)) of gate 4's pre-activation is σ of it. -/
theorem gate4_sigmoid (r : Fin 8192) (k : Fin 1024) :
    val_main_v50 (F := Ideal) x0 x1 x4 x5 x6 x7 (ix2 r k) = Ideal.logistic (pre (val_main_v0 (F := Ideal) x0 x1) x4 x5 x6 x7 4 r k) := by
  rw [val_main_v50_apply, val_main_v49_apply, val_main_cst_8_apply, val_main_v48_apply, val_main_v47_apply,
    val_main_cst_7_apply, val_main_v46_apply, val_main_v45_apply, gate4_pre]
  exact quotient_sigmoid _

/-- The candidate: tanh of gate 5's pre-activation. -/
theorem gate5_tanh (r : Fin 8192) (k : Fin 1024) :
    val_main_v53 (F := Ideal) x0 x1 x4 x5 x6 x7 (ix2 r k) = Ideal.tanh (pre (val_main_v0 (F := Ideal) x0 x1) x4 x5 x6 x7 5 r k) := by
  rw [val_main_v53_apply, gate5_pre]
  rfl

/-! ## The four results -/

/-- The first result is the new cell state. -/
theorem result_new_state :
    val_main_v59 (F := Ideal) x0 x1 x2 x4 x5 x6 x7 = stateUpdate 1 0 (val_main_v0 (F := Ideal) x0 x1) x4 x5 x6 x7 x2 := by
  funext i
  obtain ⟨r, k, rfl⟩ : ∃ (r : Fin 8192) (k : Fin 1024), i = ix2 r k := ⟨i 0, i 1, eq_ix2 i⟩
  rw [val_main_v59_apply, val_main_v57_apply, val_main_v58_apply, gate1_sigmoid, gate0_sigmoid, gate5_tanh]
  rfl

/-- The second result is the new target state. -/
theorem result_new_target :
    val_main_v62 (F := Ideal) x0 x1 x3 x4 x5 x6 x7 = stateUpdate 3 2 (val_main_v0 (F := Ideal) x0 x1) x4 x5 x6 x7 x3 := by
  funext i
  obtain ⟨r, k, rfl⟩ : ∃ (r : Fin 8192) (k : Fin 1024), i = ix2 r k := ⟨i 0, i 1, eq_ix2 i⟩
  rw [val_main_v62_apply, val_main_v60_apply, val_main_v61_apply, gate3_sigmoid, gate2_sigmoid, gate5_tanh]
  rfl

/-- The third result is the output gate. -/
theorem result_out_gate :
    val_main_v50 (F := Ideal) x0 x1 x4 x5 x6 x7 = outGate (val_main_v0 (F := Ideal) x0 x1) x4 x5 x6 x7 := by
  funext i
  obtain ⟨r, k, rfl⟩ : ∃ (r : Fin 8192) (k : Fin 1024), i = ix2 r k := ⟨i 0, i 1, eq_ix2 i⟩
  exact gate4_sigmoid x0 x1 x4 x5 x6 x7 r k

/-- The fourth result is the decay: the guarded spelling of softplus, at gate 6's pre-activation. -/
theorem result_decay :
    val_main_v56 (F := Ideal) x0 x1 x4 x5 x6 x7 = decay (val_main_v0 (F := Ideal) x0 x1) x4 x5 x6 x7 := by
  funext i
  obtain ⟨r, k, rfl⟩ : ∃ (r : Fin 8192) (k : Fin 1024), i = ix2 r k := ⟨i 0, i 1, eq_ix2 i⟩
  rw [val_main_v56_apply, val_main_call0_v4_apply, val_main_call0_v3_apply, val_main_call0_v2_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply, val_main_call0_v3_apply, val_main_call0_v2_apply, gate6_pre]
  simp only [val_main_call0_cst_apply]
  exact guarded_softplus_neg _

end Cert.ReferenceIdeal.Cell

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLeadingLoad.lean ====
/-
  One entry of the leading axis of a rank-3 array, picked out by a load.

  An array of shape [n, a, b] is a stack of n matrices. Loading the unit-stride rectangle of sizes [1, a, b] at offsets
  (g, 0, 0) reads the g-th matrix of the stack: the loaded value at (0, i, j) is the array at (g, i, j), because a
  unit-stride rectangle places its coordinate x on an axis at offset + 1 · x.
-/
import Idealize.ShloMosaic.Lib.Pipeline.Value
import Idealize.ShloMosaic.Lib.ValueIdx

namespace Idealize.ShloMosaic.ValueIdx

open Idealize.ShloMosaic

/-- The [1, a, b] rectangle at offsets (g, 0, 0) of an [n, a, b] array, loaded and read at (0, i, j), is the array at
    (g, i, j). -/
theorem ld_lead3_apply {Val : EltTy → Type} {e : EltTy} {n a b : ℕ} (X : (⟨3, ![n, a, b]⟩ : Shape).Idx → Val e)
    (g : ℕ) (hg : g < n)
    (inb : ∀ ax, (![g, 0, 0] : Fin 3 → ℕ) ax + (⟨3, ![1, a, b]⟩ : Shape).size ax ≤ (⟨3, ![n, a, b]⟩ : Shape).size ax)
    (i : Fin a) (j : Fin b) :
    View.ld X (Rect.unit (s := ⟨3, ![n, a, b]⟩) ![g, 0, 0] (⟨3, ![1, a, b]⟩ : Shape).size inb) (ix3 (0 : Fin 1) i j)
      = X (ix3 ⟨g, hg⟩ i j) := by
  show X _ = X _
  congr 1
  funext ax
  apply Fin.ext
  match ax with
  | ⟨0, _⟩ => show g + 1 * 0 = g; omega
  | ⟨1, _⟩ => show 0 + 1 * i.val = i.val; omega
  | ⟨2, _⟩ => show 0 + 1 * j.val = j.val; omega

end Idealize.ShloMosaic.ValueIdx
-- ==== Proof.KernelTile.lean ====
/-
  One gate on a tile of 64 rows.

  At each grid point the kernel holds 64 rows of the joined input (a 64 × 1536 tile X) and, for a gate, one matrix of
  each stacked weight array and one row of each stacked bias: w1 (1536 × 1024, the first weights already transposed),
  c1 (a row of 1024), w2 (1024 × 1024), c2 (a row of 1024), each still carrying the stack's leading axis, of extent 1.
  The gate's pre-activation on the tile is  (tanh (X · w1 + c1)) · w2 + c2,  the biases spread over the 64 rows, both
  products accumulated into zero. Read at row p and unit q it is
      Σ_h tanh (Σ_d X(p, d) · w1(0, d, h) + c1(0, 0, h)) · w2(0, h, q) + c2(0, 0, q).
-/
import proofs.«162500_j74938589381016_2_alg».proof.Proof.Gen.KernelIdeal.Frame
import proofs.«162500_j74938589381016_2_alg».proof.Proof.LibPlainMatmul
import proofs.«162500_j74938589381016_2_alg».proof.Proof.LibLeadingLoad
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Tile

open Cert.KernelIdeal Cert.KernelIdeal.Facts₀ Cert.KernelIdeal.Facts
open Idealize.ShloMosaic Idealize.ShloMosaic.ValueIdx

/-- A gate's pre-activation on a tile: the two layers over the tile `X` and the gate's loaded weights and biases. -/
def gateTile (X : FVec Ideal S64x1536 .bf16) (w1 : Vec Ideal S1x1536x1024 .bf16) (c1 : Vec Ideal S1x1x1024 .f32)
    (w2 : Vec Ideal S1x1024x1024 .bf16) (c2 : Vec Ideal S1x1x1024 .f32) : FVec Ideal S64x1024 .f32 :=
  addf (matmul dot_S64x1024_S1024x1024_S64x1024_1_0_0_1_n_n none
      (truncf .bf16 (tanh (addf (matmul dot_S64x1536_S1536x1024_S64x1024_1_0_0_1_n_n none X
          (shapeCast S1536x1024 w1 shapeCasts_S1x1536x1024_S1536x1024 : FVec Ideal S1536x1024 .bf16) (constant S64x1024 .f32 0x00000000#32))
        (broadcastTo S64x1024 (shapeCast S1x1024 c1 shapeCasts_S1x1x1024_S1x1024 : FVec Ideal S1x1024 .f32) broadcasts_S1x1024_S64x1024))) bitsLt_bf16_f32)
      (shapeCast S1024x1024 w2 shapeCasts_S1x1024x1024_S1024x1024 : FVec Ideal S1024x1024 .bf16) (constant S64x1024 .f32 0x00000000#32))
    (broadcastTo S64x1024 (shapeCast S1x1024 c2 shapeCasts_S1x1x1024_S1x1024 : FVec Ideal S1x1024 .f32) broadcasts_S1x1024_S64x1024)

/-- A bias row spread over the tile's rows, read at (p, q), is the loaded row at q. -/
theorem biasRow_apply (c : Vec Ideal S1x1x1024 .f32) (p : Fin 64) (q : Fin 1024) :
    broadcastTo S64x1024 (shapeCast S1x1024 c shapeCasts_S1x1x1024_S1x1024 : FVec Ideal S1x1024 .f32) broadcasts_S1x1024_S64x1024 (ix2 p q)
      = c (ix3 (0 : Fin 1) (0 : Fin 1) q) :=
  (broadcastTo_1b_ab_apply _ broadcasts_S1x1024_S64x1024 p q).trans
    (shapeCast_1ab_ab_apply c shapeCasts_S1x1x1024_S1x1024 (0 : Fin 1) q)

/-- The gate's pre-activation on the tile at row `p`, unit `q`: the two contractions as sums. -/
theorem gateTile_apply (X : FVec Ideal S64x1536 .bf16) (w1 : Vec Ideal S1x1536x1024 .bf16) (c1 : Vec Ideal S1x1x1024 .f32)
    (w2 : Vec Ideal S1x1024x1024 .bf16) (c2 : Vec Ideal S1x1x1024 .f32) (p : Fin 64) (q : Fin 1024) :
    gateTile X w1 c1 w2 c2 (ix2 p q)
      = (∑ h : Fin 1024, Ideal.tanh ((∑ d : Fin 1536, X (ix2 p d) * w1 (ix3 (0 : Fin 1) d h)) + c1 (ix3 (0 : Fin 1) (0 : Fin 1) h))
            * w2 (ix3 (0 : Fin 1) h q))
          + c2 (ix3 (0 : Fin 1) (0 : Fin 1) q) := by
  unfold gateTile
  refine congrArg₂ (· + ·) ?_ (biasRow_apply c2 p q)
  refine (matmul_plain_zero_apply dot_S64x1024_S1024x1024_S64x1024_1_0_0_1_n_n_wf none _ _ p q).trans
    (Finset.sum_congr rfl fun h _ => ?_)
  refine congrArg₂ (· * ·) ?_ (shapeCast_1ab_ab_apply w2 shapeCasts_S1x1024x1024_S1024x1024 h q)
  refine congrArg Ideal.tanh (congrArg₂ (· + ·) ?_ (biasRow_apply c1 p h))
  refine (matmul_plain_zero_apply dot_S64x1536_S1536x1024_S64x1024_1_0_0_1_n_n_wf none _ _ p h).trans
    (Finset.sum_congr rfl fun d _ => ?_)
  exact congrArg (X (ix2 p d) * ·) (shapeCast_1ab_ab_apply w1 shapeCasts_S1x1536x1024_S1536x1024 d h)

end Cert.KernelIdeal.Tile

end
-- ==== Proof.KernelBlocks.lean ====
/-
  What a grid point stores, read at an entry of the tile.

  The kernel's body loads, for each gate g, the g-th matrix of each stacked weight window and the g-th row of each stacked
  bias window, and stores four tiles: the new cell state, the new target state, the output gate and the decay. Each
  store's value is built from the gate pre-activations on the tile (KernelTile.lean) by entrywise operations. Here each
  stored tile is read at row p and unit q as that entrywise expression of the pre-activations
      blockPre g p q = Σ_h tanh (Σ_d x0(p, d) · x1(g, d, h) + x2(g, 0, h)) · x3(g, h, q) + x4(g, 0, q)
  of the input windows' whole blocks x0 … x4 (the tile of joined inputs, the transposed first weights, the first biases,
  the second weights, the second biases), and of the state tiles x5, x6.
-/
import proofs.«162500_j74938589381016_2_alg».proof.Proof.KernelTile
import proofs.«162500_j74938589381016_2_alg».proof.Proof.GateSpec

set_option maxRecDepth 16384

noncomputable section

open scoped BigOperators

namespace Cert.KernelIdeal.Tile

open Cert.KernelIdeal Cert.KernelIdeal.Gen Cert.GateCell Idealize.ShloMosaic Idealize.ShloMosaic.ValueIdx

theorem zero_offsets : (![0, 0] : Fin 2 → Nat) = fun _ => 0 := funext fun a => by fin_cases a <;> rfl

/-! ## The stored values through the gate pre-activations -/

/-- The candidate: tanh of a gate's pre-activation on the tile. -/
theorem candidate_eq (v0 : Vec Ideal S64x1536 .bf16) (w1 : Vec Ideal S1x1536x1024 .bf16) (c1 : Vec Ideal S1x1x1024 .f32)
    (w2 : Vec Ideal S1x1024x1024 .bf16) (c2 : Vec Ideal S1x1x1024 .f32) :
    k0_pay3 (F := Ideal) v0 w1 c1 w2 c2 = tanh (gateTile (k0_pay2 v0) w1 c1 w2 c2) := rfl

/-- The new cell state's tile: σ(forget) · state + σ(input) · candidate. -/
theorem state_store_eq (v0 : Vec Ideal S64x1536 .bf16) (z : FVec Ideal S64x1024 .f32)
    (w1f : Vec Ideal S1x1536x1024 .bf16) (c1f : Vec Ideal S1x1x1024 .f32) (w2f : Vec Ideal S1x1024x1024 .bf16) (c2f : Vec Ideal S1x1x1024 .f32)
    (w1i : Vec Ideal S1x1536x1024 .bf16) (c1i : Vec Ideal S1x1x1024 .f32) (w2i : Vec Ideal S1x1024x1024 .bf16) (c2i : Vec Ideal S1x1x1024 .f32)
    (ct : Vec Ideal S64x1024 .f32) :
    k0_pay7 (F := Ideal) (k0_pay2 v0) z (k0_pay4 w2f) (k0_pay5 c2f) (k0_pay6 v0 w1f c1f) w1i c1i w2i c2i ct
      = addf (mulf (logistic (gateTile (k0_pay2 v0) w1f c1f w2f c2f)) ct)
          (mulf (logistic (gateTile (k0_pay2 v0) w1i c1i w2i c2i)) z) := rfl

/-- The new target state's tile, likewise. -/
theorem target_store_eq (X : FVec Ideal S64x1536 .bf16) (z : FVec Ideal S64x1024 .f32)
    (w1f : Vec Ideal S1x1536x1024 .bf16) (c1f : Vec Ideal S1x1x1024 .f32) (w2f : Vec Ideal S1x1024x1024 .bf16) (c2f : Vec Ideal S1x1x1024 .f32)
    (w1i : Vec Ideal S1x1536x1024 .bf16) (c1i : Vec Ideal S1x1x1024 .f32) (w2i : Vec Ideal S1x1024x1024 .bf16) (c2i : Vec Ideal S1x1x1024 .f32)
    (ct : Vec Ideal S64x1024 .f32) :
    k0_pay10 (F := Ideal) X z (k0_pay8 w1f) (k0_pay9 c1f) w2f c2f w1i c1i w2i c2i ct
      = addf (mulf (logistic (gateTile X w1f c1f w2f c2f)) ct) (mulf (logistic (gateTile X w1i c1i w2i c2i)) z) := rfl

/-- The output gate's tile: σ of the gate's pre-activation. -/
theorem gate_store_eq (X : FVec Ideal S64x1536 .bf16) (w1 : Vec Ideal S1x1536x1024 .bf16) (c1 : Vec Ideal S1x1x1024 .f32)
    (w2 : Vec Ideal S1x1024x1024 .bf16) (c2 : Vec Ideal S1x1x1024 .f32) :
    k0_pay11 (F := Ideal) X w1 c1 w2 c2 = logistic (gateTile X w1 c1 w2 c2) := rfl

/-- The decay's tile at an entry: the guarded spelling of softplus at the gate's pre-activation there. -/
theorem decay_store_apply (X : FVec Ideal S64x1536 .bf16) (w1 : Vec Ideal S1x1536x1024 .bf16) (c1 : Vec Ideal S1x1x1024 .f32)
    (w2 : Vec Ideal S1x1024x1024 .bf16) (c2 : Vec Ideal S1x1x1024 .f32) (i : S64x1024.Idx) :
    k0_pay1 (F := Ideal) (k0_pay12 w2) (k0_pay13 c2) (k0_pay14 X w1 c1) i = softplus (gateTile X w1 c1 w2 c2 i) :=
  guarded_softplus_sub (gateTile X w1 c1 w2 c2 i)

/-! ## A gate's pre-activation from the whole window blocks -/

/-- Gate `g`'s pre-activation at row `p` of the tile and unit `q`, from the input windows' blocks. -/
def blockPre (x0 : Vec Ideal S64x1536 .bf16) (x1 : Vec Ideal S7x1536x1024 .bf16) (x2 : Vec Ideal S7x1x1024 .f32)
    (x3 : Vec Ideal S7x1024x1024 .bf16) (x4 : Vec Ideal S7x1x1024 .f32) (g : Fin 7) (p : Fin 64) (q : Fin 1024) : EReal :=
  (∑ h : Fin 1024, Ideal.tanh ((∑ d : Fin 1536, x0 (ix2 p d) * x1 (ix3 g d h)) + x2 (ix3 g (0 : Fin 1) h)) * x3 (ix3 g h q))
    + x4 (ix3 g (0 : Fin 1) q)

/-- The tile of joined inputs, loaded whole and recast to its own shape, is the window's block. -/
theorem input_tile_eq (x0 : Vec Ideal S64x1536 .bf16) : k0_pay2 (F := Ideal) (View.ld x0 r0_0) = x0 :=
  (shapeCast_self (s := S64x1536) (View.ld x0 r0_0) _).trans (View.ld_unit_zero (S := S64x1536) zero_offsets _ x0)

/-- The gate's pre-activation over the pieces loaded at offsets (g, 0, 0) of the four stacked windows is `blockPre g`. -/
theorem gate_of_loads (x0 : Vec Ideal S64x1536 .bf16) (x1 : Vec Ideal S7x1536x1024 .bf16) (x2 : Vec Ideal S7x1x1024 .f32)
    (x3 : Vec Ideal S7x1024x1024 .bf16) (x4 : Vec Ideal S7x1x1024 .f32) (g : ℕ) (hg : g < 7)
    (i1 : ∀ a, (![g, 0, 0] : Fin 3 → Nat) a + S1x1536x1024.size a ≤ S7x1536x1024.size a)
    (i2 : ∀ a, (![g, 0, 0] : Fin 3 → Nat) a + S1x1x1024.size a ≤ S7x1x1024.size a)
    (i3 : ∀ a, (![g, 0, 0] : Fin 3 → Nat) a + S1x1024x1024.size a ≤ S7x1024x1024.size a)
    (i4 : ∀ a, (![g, 0, 0] : Fin 3 → Nat) a + S1x1x1024.size a ≤ S7x1x1024.size a)
    (p : Fin 64) (q : Fin 1024) :
    gateTile (k0_pay2 (View.ld x0 r0_0))
        (View.ld x1 (Rect.unit (s := S7x1536x1024) ![g, 0, 0] S1x1536x1024.size i1))
        (View.ld x2 (Rect.unit (s := S7x1x1024) ![g, 0, 0] S1x1x1024.size i2))
        (View.ld x3 (Rect.unit (s := S7x1024x1024) ![g, 0, 0] S1x1024x1024.size i3))
        (View.ld x4 (Rect.unit (s := S7x1x1024) ![g, 0, 0] S1x1x1024.size i4)) (ix2 p q)
      = blockPre x0 x1 x2 x3 x4 ⟨g, hg⟩ p q := by
  rw [input_tile_eq]
  refine (gateTile_apply _ _ _ _ _ p q).trans ?_
  unfold blockPre
  refine congrArg₂ (· + ·) (Finset.sum_congr rfl fun h _ => ?_) (ld_lead3_apply x4 g hg i4 (0 : Fin 1) q)
  refine congrArg₂ (· * ·) (congrArg Ideal.tanh (congrArg₂ (· + ·) (Finset.sum_congr rfl fun d _ => ?_)
    (ld_lead3_apply x2 g hg i2 (0 : Fin 1) h))) (ld_lead3_apply x3 g hg i3 h q)
  exact congrArg (x0 (ix2 p d) * ·) (ld_lead3_apply x1 g hg i1 d h)

/-! ## The four stored tiles at an entry -/

variable (x0 : Vec Ideal S64x1536 .bf16) (x1 : Vec Ideal S7x1536x1024 .bf16) (x2 : Vec Ideal S7x1x1024 .f32)
  (x3 : Vec Ideal S7x1024x1024 .bf16) (x4 : Vec Ideal S7x1x1024 .f32) (x5 x6 : Vec Ideal S64x1024 .f32)

/-- The new cell state's tile at (p, q). -/
theorem out7_apply (p : Fin 64) (q : Fin 1024) :
    out0_7 (F := Ideal) x0 x1 x2 x3 x4 x5 x6 (ix2 p q)
      = Ideal.logistic (blockPre x0 x1 x2 x3 x4 1 p q) * x5 (ix2 p q)
        + Ideal.logistic (blockPre x0 x1 x2 x3 x4 0 p q) * Ideal.tanh (blockPre x0 x1 x2 x3 x4 5 p q) := by
  unfold out0_7
  rw [View.canon_unit_zero zero_offsets, candidate_eq, state_store_eq, View.ld_unit_zero (S := S64x1024) zero_offsets]
  exact congrArg₂ (· + ·)
    (congrArg (· * x5 (ix2 p q)) (congrArg Ideal.logistic (gate_of_loads x0 x1 x2 x3 x4 1 (by decide) _ _ _ _ p q)))
    (congrArg₂ (· * ·) (congrArg Ideal.logistic (gate_of_loads x0 x1 x2 x3 x4 0 (by decide) _ _ _ _ p q))
      (congrArg Ideal.tanh (gate_of_loads x0 x1 x2 x3 x4 5 (by decide) _ _ _ _ p q)))

/-- The new target state's tile at (p, q). -/
theorem out8_apply (p : Fin 64) (q : Fin 1024) :
    out0_8 (F := Ideal) x0 x1 x2 x3 x4 x5 x6 (ix2 p q)
      = Ideal.logistic (blockPre x0 x1 x2 x3 x4 3 p q) * x6 (ix2 p q)
        + Ideal.logistic (blockPre x0 x1 x2 x3 x4 2 p q) * Ideal.tanh (blockPre x0 x1 x2 x3 x4 5 p q) := by
  unfold out0_8
  rw [View.canon_unit_zero zero_offsets, candidate_eq, target_store_eq, View.ld_unit_zero (S := S64x1024) zero_offsets]
  exact congrArg₂ (· + ·)
    (congrArg (· * x6 (ix2 p q)) (congrArg Ideal.logistic (gate_of_loads x0 x1 x2 x3 x4 3 (by decide) _ _ _ _ p q)))
    (congrArg₂ (· * ·) (congrArg Ideal.logistic (gate_of_loads x0 x1 x2 x3 x4 2 (by decide) _ _ _ _ p q))
      (congrArg Ideal.tanh (gate_of_loads x0 x1 x2 x3 x4 5 (by decide) _ _ _ _ p q)))

/-- The output gate's tile at (p, q). -/
theorem out9_apply (p : Fin 64) (q : Fin 1024) :
    out0_9 (F := Ideal) x0 x1 x2 x3 x4 x5 x6 (ix2 p q) = Ideal.logistic (blockPre x0 x1 x2 x3 x4 4 p q) := by
  unfold out0_9
  rw [View.canon_unit_zero zero_offsets, gate_store_eq]
  exact congrArg Ideal.logistic (gate_of_loads x0 x1 x2 x3 x4 4 (by decide) _ _ _ _ p q)

/-- The decay's tile at (p, q). -/
theorem out10_apply (p : Fin 64) (q : Fin 1024) :
    out0_10 (F := Ideal) x0 x1 x2 x3 x4 x5 x6 (ix2 p q) = softplus (blockPre x0 x1 x2 x3 x4 6 p q) := by
  unfold out0_10
  rw [View.canon_unit_zero zero_offsets, decay_store_apply]
  exact congrArg softplus (gate_of_loads x0 x1 x2 x3 x4 6 (by decide) _ _ _ _ p q)

end Cert.KernelIdeal.Tile

end
-- ==== Proof.KernelArrays.lean ====
/-
  From the tiles to the arrays.

  Before the kernel is launched the program joins the two inputs, transposes the first weights' last two axes, and gives
  each bias array a unit middle axis (the changes of float format are the identity on the extended reals). The kernel runs
  over 128 grid points; point t works on rows 64 t … 64 t + 63: it is handed that tile of the joined inputs and of the two
  state arrays, and the weight and bias arrays whole, and it writes back that tile of each of the four results. So a
  tile entry (p, q) at point t is the array entry (64 t + p, q); the transposed weights at (g, d, h) are the first weights
  at (g, h, d); a bias at (g, 0, h) is the bias at (g, h). Hence every written tile is the matching tile of the
  specification's function of the arguments, the tiles cover the result arrays, and each result array ends as that function.
-/
import proofs.«162500_j74938589381016_2_alg».proof.Proof.Gen.KernelIdeal.Value
import proofs.«162500_j74938589381016_2_alg».proof.Proof.KernelBlocks
import Idealize.ShloMosaic.Lib.StableHlo.Run
import Idealize.ShloMosaic.Lib.ValueLayout

set_option maxRecDepth 16384

noncomputable section

open scoped BigOperators

namespace Cert.KernelIdeal.Arrays

open Cert.KernelIdeal Cert.KernelIdeal.Gen Cert.KernelIdeal.Value Cert.KernelIdeal.Tile Cert.GateCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays -/

/-- The two inputs joined along the columns. -/
abbrev joined (c : Dev nD) : S8192x1536.Idx → EReal :=
  concatenate S8192x1536 1 [⟨S8192x512, (m ((c : Thread nD τ).loc main_arg0) : FVec Ideal S8192x512 .f32)⟩,
    ⟨S8192x1024, (m ((c : Thread nD τ).loc main_arg1) : FVec Ideal S8192x1024 .f32)⟩]
    Facts₀.concatenates_S8192x512_S8192x1024_S8192x1536_d1

abbrev cellState (c : Dev nD) : FVec Ideal S8192x1024 .f32 := m ((c : Thread nD τ).loc main_arg2)
abbrev targetState (c : Dev nD) : FVec Ideal S8192x1024 .f32 := m ((c : Thread nD τ).loc main_arg3)
abbrev firstWeights (c : Dev nD) : FVec Ideal S7x1024x1536 .f32 := m ((c : Thread nD τ).loc main_arg4)
abbrev firstBias (c : Dev nD) : FVec Ideal S7x1024 .f32 := m ((c : Thread nD τ).loc main_arg5)
abbrev secondWeights (c : Dev nD) : FVec Ideal S7x1024x1024 .f32 := m ((c : Thread nD τ).loc main_arg6)
abbrev secondBias (c : Dev nD) : FVec Ideal S7x1024 .f32 := m ((c : Thread nD τ).loc main_arg7)

/-! ## What the kernel is handed -/

theorem staged_joined (c : Dev nD) : (V m c main_v1 : S8192x1536.Idx → EReal) = joined m c := by
  dsimp only [V, hostOps0]
  after_results <;> rfl

theorem staged_firstWeights (c : Dev nD) : (V m c main_v3 : S7x1536x1024.Idx → EReal)
    = transpose S7x1536x1024 [0, 2, 1] (firstWeights m c) Facts₀.transposes_S7x1024x1536_S7x1536x1024_0_2_1 := by
  dsimp only [V, hostOps0]
  after_results <;> rfl

theorem staged_firstBias (c : Dev nD) : (V m c main_v5 : S7x1x1024.Idx → EReal)
    = shapeCast S7x1x1024 (firstBias m c) Facts₀.shapeCasts_S7x1024_S7x1x1024 := by
  dsimp only [V, hostOps0]
  after_results <;> rfl

theorem staged_secondWeights (c : Dev nD) : (V m c main_v4 : S7x1024x1024.Idx → EReal) = secondWeights m c := by
  dsimp only [V, hostOps0]
  after_results <;> rfl

theorem staged_secondBias (c : Dev nD) : (V m c main_v6 : S7x1x1024.Idx → EReal)
    = shapeCast S7x1x1024 (secondBias m c) Facts₀.shapeCasts_S7x1024_S7x1x1024 := by
  dsimp only [V, hostOps0]
  after_results <;> rfl

/-- A bias array given a unit middle axis reads, at (g, 0, h), the bias at (g, h). -/
theorem biasStack_apply (b : FVec Ideal S7x1024 .f32) (g : Fin 7) (h : Fin 1024) :
    shapeCast S7x1x1024 b Facts₀.shapeCasts_S7x1024_S7x1x1024 (ix3 g (0 : Fin 1) h) = b (ix2 g h) :=
  shapeCast_apply b _ _ _ (by
    rw [Shape.rowMajor_val_two, Shape.rowMajor_val_three]
    show g.val * 1024 + h.val = (g.val * 1 + 0) * 1024 + h.val
    omega)

/-! ## The index maps, decided over the grid -/

/-- The tiled windows (joined input, the two states, the four results) move one block of rows per point; the weight and
    bias windows stay at block 0. -/
theorem block_index_maps : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem point_lt (t : Fin cfg0.N) : t.val < 128 := lt_of_lt_of_eq t.isLt N_0

/-! ## The input blocks at an entry -/

/-- The tile of joined inputs at point t, entry (p, d), is the joined array at (64 t + p, d). -/
theorem joined_block (c : Dev nD) (t : Fin cfg0.N) (p : Fin 64) (d : Fin 1536) (r : Fin 8192) (hr : r.val = 64 * t.val + p.val) :
    (iblk m c 0 t : Vec Ideal S64x1536 .bf16) (ix2 p d) = joined m c (ix2 r d) := by
  obtain ⟨⟨e0, e1⟩, -⟩ := block_index_maps t
  unfold iblk
  rw [View.read_apply]
  show V m c main_v1 _ = _
  rw [staged_joined]
  congr 1
  funext a
  apply Fin.ext
  match a with
  | ⟨0, _⟩ => show win0_0.index t 0 * 64 + 1 * p.val = r.val; rw [e0, hr]; omega
  | ⟨1, _⟩ => show win0_0.index t 1 * 1536 + 1 * d.val = d.val; rw [e1]; omega

/-- The first-weights window at any point, entry (g, d, h), is the first weights at (g, h, d). -/
theorem firstWeights_block (c : Dev nD) (t : Fin cfg0.N) (g : Fin 7) (d : Fin 1536) (h : Fin 1024) :
    (iblk m c 1 t : Vec Ideal S7x1536x1024 .bf16) (ix3 g d h) = firstWeights m c (ix3 g h d) := by
  obtain ⟨-, ⟨e0, e1, e2⟩, -⟩ := block_index_maps t
  unfold iblk
  rw [View.read_apply]
  show V m c main_v3 _ = _
  rw [staged_firstWeights]
  refine Eq.trans (congrArg _ ?_) (transpose_ix3_021_apply (firstWeights m c) _ g d h)
  funext a
  apply Fin.ext
  match a with
  | ⟨0, _⟩ => show win0_1.index t 0 * 7 + 1 * g.val = g.val; rw [e0]; omega
  | ⟨1, _⟩ => show win0_1.index t 1 * 1536 + 1 * d.val = d.val; rw [e1]; omega
  | ⟨2, _⟩ => show win0_1.index t 2 * 1024 + 1 * h.val = h.val; rw [e2]; omega

/-- The first-bias window at any point, entry (g, 0, h), is the first bias at (g, h). -/
theorem firstBias_block (c : Dev nD) (t : Fin cfg0.N) (g : Fin 7) (h : Fin 1024) :
    (iblk m c 2 t : Vec Ideal S7x1x1024 .f32) (ix3 g (0 : Fin 1) h) = firstBias m c (ix2 g h) := by
  obtain ⟨-, -, ⟨e0, e1, e2⟩, -⟩ := block_index_maps t
  unfold iblk
  rw [View.read_apply]
  show V m c main_v5 _ = _
  rw [staged_firstBias]
  refine Eq.trans (congrArg _ ?_) (biasStack_apply (firstBias m c) g h)
  funext a
  apply Fin.ext
  match a with
  | ⟨0, _⟩ => show win0_2.index t 0 * 7 + 1 * g.val = g.val; rw [e0]; omega
  | ⟨1, _⟩ => show win0_2.index t 1 * 1 + 1 * 0 = 0; rw [e1]
  | ⟨2, _⟩ => show win0_2.index t 2 * 1024 + 1 * h.val = h.val; rw [e2]; omega

/-- The second-weights window at any point is the second weights. -/
theorem secondWeights_block (c : Dev nD) (t : Fin cfg0.N) (g : Fin 7) (h : Fin 1024) (q : Fin 1024) :
    (iblk m c 3 t : Vec Ideal S7x1024x1024 .bf16) (ix3 g h q) = secondWeights m c (ix3 g h q) := by
  obtain ⟨-, -, -, ⟨e0, e1, e2⟩, -⟩ := block_index_maps t
  unfold iblk
  rw [View.read_apply]
  show V m c main_v4 _ = _
  rw [staged_secondWeights]
  congr 1
  funext a
  apply Fin.ext
  match a with
  | ⟨0, _⟩ => show win0_3.index t 0 * 7 + 1 * g.val = g.val; rw [e0]; omega
  | ⟨1, _⟩ => show win0_3.index t 1 * 1024 + 1 * h.val = h.val; rw [e1]; omega
  | ⟨2, _⟩ => show win0_3.index t 2 * 1024 + 1 * q.val = q.val; rw [e2]; omega

/-- The second-bias window at any point, entry (g, 0, q), is the second bias at (g, q). -/
theorem secondBias_block (c : Dev nD) (t : Fin cfg0.N) (g : Fin 7) (q : Fin 1024) :
    (iblk m c 4 t : Vec Ideal S7x1x1024 .f32) (ix3 g (0 : Fin 1) q) = secondBias m c (ix2 g q) := by
  obtain ⟨-, -, -, -, ⟨e0, e1, e2⟩, -⟩ := block_index_maps t
  unfold iblk
  rw [View.read_apply]
  show V m c main_v6 _ = _
  rw [staged_secondBias]
  refine Eq.trans (congrArg _ ?_) (biasStack_apply (secondBias m c) g q)
  funext a
  apply Fin.ext
  match a with
  | ⟨0, _⟩ => show win0_4.index t 0 * 7 + 1 * g.val = g.val; rw [e0]; omega
  | ⟨1, _⟩ => show win0_4.index t 1 * 1 + 1 * 0 = 0; rw [e1]
  | ⟨2, _⟩ => show win0_4.index t 2 * 1024 + 1 * q.val = q.val; rw [e2]; omega

/-- The cell-state tile at point t, entry (p, q), is the cell state at (64 t + p, q). -/
theorem cellState_block (c : Dev nD) (t : Fin cfg0.N) (p : Fin 64) (q : Fin 1024) (r : Fin 8192) (hr : r.val = 64 * t.val + p.val) :
    (iblk m c 5 t : Vec Ideal S64x1024 .f32) (ix2 p q) = cellState m c (ix2 r q) := by
  obtain ⟨-, -, -, -, -, ⟨e0, e1⟩, -⟩ := block_index_maps t
  unfold iblk
  rw [View.read_apply]
  show V m c main_arg2 _ = _
  rw [V_main_arg2]
  congr 1
  funext a
  apply Fin.ext
  match a with
  | ⟨0, _⟩ => show win0_5.index t 0 * 64 + 1 * p.val = r.val; rw [e0, hr]; omega
  | ⟨1, _⟩ => show win0_5.index t 1 * 1024 + 1 * q.val = q.val; rw [e1]; omega

/-- The target-state tile at point t, entry (p, q), is the target state at (64 t + p, q). -/
theorem targetState_block (c : Dev nD) (t : Fin cfg0.N) (p : Fin 64) (q : Fin 1024) (r : Fin 8192) (hr : r.val = 64 * t.val + p.val) :
    (iblk m c 6 t : Vec Ideal S64x1024 .f32) (ix2 p q) = targetState m c (ix2 r q) := by
  obtain ⟨-, -, -, -, -, -, ⟨e0, e1⟩, -⟩ := block_index_maps t
  unfold iblk
  rw [View.read_apply]
  show V m c main_arg3 _ = _
  rw [V_main_arg3]
  congr 1
  funext a
  apply Fin.ext
  match a with
  | ⟨0, _⟩ => show win0_6.index t 0 * 64 + 1 * p.val = r.val; rw [e0, hr]; omega
  | ⟨1, _⟩ => show win0_6.index t 1 * 1024 + 1 * q.val = q.val; rw [e1]; omega

/-! ## A gate's pre-activation on the tile is the specification's -/

/-- At point t, gate g's pre-activation at tile entry (p, q) is the specification's at row 64 t + p: the two sums run over
    the same products, the first contraction's factors in the other order. -/
theorem blockPre_eq (c : Dev nD) (t : Fin cfg0.N) (g : Fin 7) (p : Fin 64) (q : Fin 1024) (r : Fin 8192)
    (hr : r.val = 64 * t.val + p.val) :
    blockPre (iblk m c 0 t) (iblk m c 1 t) (iblk m c 2 t) (iblk m c 3 t) (iblk m c 4 t) g p q
      = pre (joined m c) (firstWeights m c) (firstBias m c) (secondWeights m c) (secondBias m c) g r q := by
  unfold blockPre pre
  refine congrArg₂ (· + ·) (Finset.sum_congr rfl fun h _ => ?_) (secondBias_block m c t g q)
  refine congrArg₂ (· * ·) (congrArg Ideal.tanh (congrArg₂ (· + ·) (Finset.sum_congr rfl fun d _ => ?_)
    (firstBias_block m c t g h))) (secondWeights_block m c t g h q)
  exact (congrArg₂ (fun a b : EReal => a * b) (joined_block m c t p d r hr) (firstWeights_block m c t g d h)).trans (mul_comm _ _)

/-! ## What each point writes back -/

/-- The four results as functions of the arguments. -/
abbrev newState (c : Dev nD) : Buf (Elt Ideal) ((c : Thread nD τ).loc main_v7_0) :=
  stateUpdate 1 0 (joined m c) (firstWeights m c) (firstBias m c) (secondWeights m c) (secondBias m c) (cellState m c)
abbrev newTarget (c : Dev nD) : Buf (Elt Ideal) ((c : Thread nD τ).loc main_v7_1) :=
  stateUpdate 3 2 (joined m c) (firstWeights m c) (firstBias m c) (secondWeights m c) (secondBias m c) (targetState m c)
abbrev outputGate (c : Dev nD) : Buf (Elt Ideal) ((c : Thread nD τ).loc main_v7_2) :=
  outGate (joined m c) (firstWeights m c) (firstBias m c) (secondWeights m c) (secondBias m c)
abbrev decayRate (c : Dev nD) : Buf (Elt Ideal) ((c : Thread nD τ).loc main_v7_3) :=
  decay (joined m c) (firstWeights m c) (firstBias m c) (secondWeights m c) (secondBias m c)

/-- The array row of tile row p at point t. -/
def rowOf (t : Fin cfg0.N) (p : Fin 64) : Fin 8192 := ⟨64 * t.val + p.val, by have := point_lt t; have := p.isLt; omega⟩

theorem state_flush (c : Dev nD) (t : Fin cfg0.N) :
    (dats m 0 c).flushed 7 t = ((cfg0.win 7).blk t).view.read (Elt Ideal) (newState m c) := by
  obtain ⟨-, -, -, -, -, -, -, ⟨e0, e1⟩, -⟩ := block_index_maps t
  rw [flushed7]
  funext y
  obtain ⟨p, q, rfl⟩ : ∃ (p : Fin 64) (q : Fin 1024), y = ix2 p q := ⟨y 0, y 1, eq_ix2 y⟩
  have hemb : ((cfg0.win 7).blk t).view.emb (ix2 p q) = ix2 (rowOf t p) q := by
    funext a
    apply Fin.ext
    match a with
    | ⟨0, _⟩ => show win0_7.index t 0 * 64 + 1 * p.val = 64 * t.val + p.val; rw [e0]; omega
    | ⟨1, _⟩ => show win0_7.index t 1 * 1024 + 1 * q.val = q.val; rw [e1]; omega
  show out0_7 (iblk m c 0 t) (iblk m c 1 t) (iblk m c 2 t) (iblk m c 3 t) (iblk m c 4 t) (iblk m c 5 t) (iblk m c 6 t) (ix2 p q)
    = newState m c (((cfg0.win 7).blk t).view.emb (ix2 p q))
  rw [hemb]
  refine (out7_apply _ _ _ _ _ _ _ p q).trans ?_
  exact congrArg₂ (· + ·)
    (congrArg₂ (· * ·) (congrArg Ideal.logistic (blockPre_eq m c t 1 p q (rowOf t p) rfl)) (cellState_block m c t p q (rowOf t p) rfl))
    (congrArg₂ (· * ·) (congrArg Ideal.logistic (blockPre_eq m c t 0 p q (rowOf t p) rfl))
      (congrArg Ideal.tanh (blockPre_eq m c t 5 p q (rowOf t p) rfl)))

theorem target_flush (c : Dev nD) (t : Fin cfg0.N) :
    (dats m 0 c).flushed 8 t = ((cfg0.win 8).blk t).view.read (Elt Ideal) (newTarget m c) := by
  obtain ⟨-, -, -, -, -, -, -, -, ⟨e0, e1⟩, -⟩ := block_index_maps t
  rw [flushed8]
  funext y
  obtain ⟨p, q, rfl⟩ : ∃ (p : Fin 64) (q : Fin 1024), y = ix2 p q := ⟨y 0, y 1, eq_ix2 y⟩
  have hemb : ((cfg0.win 8).blk t).view.emb (ix2 p q) = ix2 (rowOf t p) q := by
    funext a
    apply Fin.ext
    match a with
    | ⟨0, _⟩ => show win0_8.index t 0 * 64 + 1 * p.val = 64 * t.val + p.val; rw [e0]; omega
    | ⟨1, _⟩ => show win0_8.index t 1 * 1024 + 1 * q.val = q.val; rw [e1]; omega
  show out0_8 (iblk m c 0 t) (iblk m c 1 t) (iblk m c 2 t) (iblk m c 3 t) (iblk m c 4 t) (iblk m c 5 t) (iblk m c 6 t) (ix2 p q)
    = newTarget m c (((cfg0.win 8).blk t).view.emb (ix2 p q))
  rw [hemb]
  refine (out8_apply _ _ _ _ _ _ _ p q).trans ?_
  exact congrArg₂ (· + ·)
    (congrArg₂ (· * ·) (congrArg Ideal.logistic (blockPre_eq m c t 3 p q (rowOf t p) rfl)) (targetState_block m c t p q (rowOf t p) rfl))
    (congrArg₂ (· * ·) (congrArg Ideal.logistic (blockPre_eq m c t 2 p q (rowOf t p) rfl))
      (congrArg Ideal.tanh (blockPre_eq m c t 5 p q (rowOf t p) rfl)))

theorem gate_flush (c : Dev nD) (t : Fin cfg0.N) :
    (dats m 0 c).flushed 9 t = ((cfg0.win 9).blk t).view.read (Elt Ideal) (outputGate m c) := by
  obtain ⟨-, -, -, -, -, -, -, -, -, ⟨e0, e1⟩, -⟩ := block_index_maps t
  rw [flushed9]
  funext y
  obtain ⟨p, q, rfl⟩ : ∃ (p : Fin 64) (q : Fin 1024), y = ix2 p q := ⟨y 0, y 1, eq_ix2 y⟩
  have hemb : ((cfg0.win 9).blk t).view.emb (ix2 p q) = ix2 (rowOf t p) q := by
    funext a
    apply Fin.ext
    match a with
    | ⟨0, _⟩ => show win0_9.index t 0 * 64 + 1 * p.val = 64 * t.val + p.val; rw [e0]; omega
    | ⟨1, _⟩ => show win0_9.index t 1 * 1024 + 1 * q.val = q.val; rw [e1]; omega
  show out0_9 (iblk m c 0 t) (iblk m c 1 t) (iblk m c 2 t) (iblk m c 3 t) (iblk m c 4 t) (iblk m c 5 t) (iblk m c 6 t) (ix2 p q)
    = outputGate m c (((cfg0.win 9).blk t).view.emb (ix2 p q))
  rw [hemb]
  refine (out9_apply _ _ _ _ _ _ _ p q).trans ?_
  exact congrArg Ideal.logistic (blockPre_eq m c t 4 p q (rowOf t p) rfl)

theorem decay_flush (c : Dev nD) (t : Fin cfg0.N) :
    (dats m 0 c).flushed 10 t = ((cfg0.win 10).blk t).view.read (Elt Ideal) (decayRate m c) := by
  obtain ⟨-, -, -, -, -, -, -, -, -, -, ⟨e0, e1⟩⟩ := block_index_maps t
  rw [flushed10]
  funext y
  obtain ⟨p, q, rfl⟩ : ∃ (p : Fin 64) (q : Fin 1024), y = ix2 p q := ⟨y 0, y 1, eq_ix2 y⟩
  have hemb : ((cfg0.win 10).blk t).view.emb (ix2 p q) = ix2 (rowOf t p) q := by
    funext a
    apply Fin.ext
    match a with
    | ⟨0, _⟩ => show win0_10.index t 0 * 64 + 1 * p.val = 64 * t.val + p.val; rw [e0]; omega
    | ⟨1, _⟩ => show win0_10.index t 1 * 1024 + 1 * q.val = q.val; rw [e1]; omega
  show out0_10 (iblk m c 0 t) (iblk m c 1 t) (iblk m c 2 t) (iblk m c 3 t) (iblk m c 4 t) (iblk m c 5 t) (iblk m c 6 t) (ix2 p q)
    = decayRate m c (((cfg0.win 10).blk t).view.emb (ix2 p q))
  rw [hemb]
  refine (out10_apply _ _ _ _ _ _ _ p q).trans ?_
  exact congrArg softplus (blockPre_eq m c t 6 p q (rowOf t p) rfl)

/-! ## The tiles cover the result arrays -/

/-- Row r of result window 7's array lies in the tile of point r / 64. -/
theorem cover7 (i : S8192x1024.Idx) :
    ∃ t : Fin cfg0.N, (cfg0.win 7).flush t = true ∧ i ∈ ((cfg0.win 7).blk t).view.set := by
  have h0 : (i 0).val < 8192 := (i 0).isLt
  have h1 : (i 1).val < 1024 := (i 1).isLt
  have hN : (i 0).val / 64 < cfg0.N := lt_of_lt_of_eq (show (i 0).val / 64 < 128 by omega) N_0.symm
  refine ⟨⟨(i 0).val / 64, hN⟩, flush0_7 _, ?_⟩
  obtain ⟨-, -, -, -, -, -, -, ⟨e0, e1⟩, -⟩ := block_index_maps ⟨(i 0).val / 64, hN⟩
  show i ∈ ((View.whole main_v7_0).slice (win0_7.rect ⟨(i 0).val / 64, hN⟩)).set
  rw [View.set_slice_whole, Rect.mem_set_unit]
  intro a
  match a with
  | ⟨0, _⟩ =>
    show win0_7.index ⟨(i 0).val / 64, hN⟩ 0 * 64 ≤ (i 0).val ∧ (i 0).val < win0_7.index ⟨(i 0).val / 64, hN⟩ 0 * 64 + 64
    rw [e0]
    show (i 0).val / 64 * 64 ≤ (i 0).val ∧ (i 0).val < (i 0).val / 64 * 64 + 64
    omega
  | ⟨1, _⟩ =>
    show win0_7.index ⟨(i 0).val / 64, hN⟩ 1 * 1024 ≤ (i 1).val ∧ (i 1).val < win0_7.index ⟨(i 0).val / 64, hN⟩ 1 * 1024 + 1024
    rw [e1]
    omega

/-- Row r of result window 8's array lies in the tile of point r / 64. -/
theorem cover8 (i : S8192x1024.Idx) :
    ∃ t : Fin cfg0.N, (cfg0.win 8).flush t = true ∧ i ∈ ((cfg0.win 8).blk t).view.set := by
  have h0 : (i 0).val < 8192 := (i 0).isLt
  have h1 : (i 1).val < 1024 := (i 1).isLt
  have hN : (i 0).val / 64 < cfg0.N := lt_of_lt_of_eq (show (i 0).val / 64 < 128 by omega) N_0.symm
  refine ⟨⟨(i 0).val / 64, hN⟩, flush0_8 _, ?_⟩
  obtain ⟨-, -, -, -, -, -, -, -, ⟨e0, e1⟩, -⟩ := block_index_maps ⟨(i 0).val / 64, hN⟩
  show i ∈ ((View.whole main_v7_1).slice (win0_8.rect ⟨(i 0).val / 64, hN⟩)).set
  rw [View.set_slice_whole, Rect.mem_set_unit]
  intro a
  match a with
  | ⟨0, _⟩ =>
    show win0_8.index ⟨(i 0).val / 64, hN⟩ 0 * 64 ≤ (i 0).val ∧ (i 0).val < win0_8.index ⟨(i 0).val / 64, hN⟩ 0 * 64 + 64
    rw [e0]
    show (i 0).val / 64 * 64 ≤ (i 0).val ∧ (i 0).val < (i 0).val / 64 * 64 + 64
    omega
  | ⟨1, _⟩ =>
    show win0_8.index ⟨(i 0).val / 64, hN⟩ 1 * 1024 ≤ (i 1).val ∧ (i 1).val < win0_8.index ⟨(i 0).val / 64, hN⟩ 1 * 1024 + 1024
    rw [e1]
    omega

/-- Row r of result window 9's array lies in the tile of point r / 64. -/
theorem cover9 (i : S8192x1024.Idx) :
    ∃ t : Fin cfg0.N, (cfg0.win 9).flush t = true ∧ i ∈ ((cfg0.win 9).blk t).view.set := by
  have h0 : (i 0).val < 8192 := (i 0).isLt
  have h1 : (i 1).val < 1024 := (i 1).isLt
  have hN : (i 0).val / 64 < cfg0.N := lt_of_lt_of_eq (show (i 0).val / 64 < 128 by omega) N_0.symm
  refine ⟨⟨(i 0).val / 64, hN⟩, flush0_9 _, ?_⟩
  obtain ⟨-, -, -, -, -, -, -, -, -, ⟨e0, e1⟩, -⟩ := block_index_maps ⟨(i 0).val / 64, hN⟩
  show i ∈ ((View.whole main_v7_2).slice (win0_9.rect ⟨(i 0).val / 64, hN⟩)).set
  rw [View.set_slice_whole, Rect.mem_set_unit]
  intro a
  match a with
  | ⟨0, _⟩ =>
    show win0_9.index ⟨(i 0).val / 64, hN⟩ 0 * 64 ≤ (i 0).val ∧ (i 0).val < win0_9.index ⟨(i 0).val / 64, hN⟩ 0 * 64 + 64
    rw [e0]
    show (i 0).val / 64 * 64 ≤ (i 0).val ∧ (i 0).val < (i 0).val / 64 * 64 + 64
    omega
  | ⟨1, _⟩ =>
    show win0_9.index ⟨(i 0).val / 64, hN⟩ 1 * 1024 ≤ (i 1).val ∧ (i 1).val < win0_9.index ⟨(i 0).val / 64, hN⟩ 1 * 1024 + 1024
    rw [e1]
    omega

/-- Row r of result window 10's array lies in the tile of point r / 64. -/
theorem cover10 (i : S8192x1024.Idx) :
    ∃ t : Fin cfg0.N, (cfg0.win 10).flush t = true ∧ i ∈ ((cfg0.win 10).blk t).view.set := by
  have h0 : (i 0).val < 8192 := (i 0).isLt
  have h1 : (i 1).val < 1024 := (i 1).isLt
  have hN : (i 0).val / 64 < cfg0.N := lt_of_lt_of_eq (show (i 0).val / 64 < 128 by omega) N_0.symm
  refine ⟨⟨(i 0).val / 64, hN⟩, flush0_10 _, ?_⟩
  obtain ⟨-, -, -, -, -, -, -, -, -, -, ⟨e0, e1⟩⟩ := block_index_maps ⟨(i 0).val / 64, hN⟩
  show i ∈ ((View.whole main_v7_3).slice (win0_10.rect ⟨(i 0).val / 64, hN⟩)).set
  rw [View.set_slice_whole, Rect.mem_set_unit]
  intro a
  match a with
  | ⟨0, _⟩ =>
    show win0_10.index ⟨(i 0).val / 64, hN⟩ 0 * 64 ≤ (i 0).val ∧ (i 0).val < win0_10.index ⟨(i 0).val / 64, hN⟩ 0 * 64 + 64
    rw [e0]
    show (i 0).val / 64 * 64 ≤ (i 0).val ∧ (i 0).val < (i 0).val / 64 * 64 + 64
    omega
  | ⟨1, _⟩ =>
    show win0_10.index ⟨(i 0).val / 64, hN⟩ 1 * 1024 ≤ (i 1).val ∧ (i 1).val < win0_10.index ⟨(i 0).val / 64, hN⟩ 1 * 1024 + 1024
    rw [e1]
    omega

/-! ## The result arrays after the run -/

theorem final_state (c : Dev nD) : (dats m 0 c).arrAt 7 cfg0.N = newState m c :=
  (dats m 0 c).arrAt_eq_of_cover 7 (newState m c) (fun t _ => state_flush m c t) cover7

theorem final_target (c : Dev nD) : (dats m 0 c).arrAt 8 cfg0.N = newTarget m c :=
  (dats m 0 c).arrAt_eq_of_cover 8 (newTarget m c) (fun t _ => target_flush m c t) cover8

theorem final_gate (c : Dev nD) : (dats m 0 c).arrAt 9 cfg0.N = outputGate m c :=
  (dats m 0 c).arrAt_eq_of_cover 9 (outputGate m c) (fun t _ => gate_flush m c t) cover9

theorem final_decay (c : Dev nD) : (dats m 0 c).arrAt 10 cfg0.N = decayRate m c :=
  (dats m 0 c).arrAt_eq_of_cover 10 (decayRate m c) (fun t _ => decay_flush m c t) cover10

/-- The kernel's run: every weakly fair execution terminates with the four result arrays at the specification's
    functions of the arguments, and the arguments unchanged. -/
theorem run : θ_run defs (onTc (τ := τ) (main (F := Ideal))) ⟨m, fun _ => 0, ρ⟩ fun r => ∀ c : Dev nD,
      r.2.mem ((c : Thread nD τ).loc main_v7_0) = newState m c
      ∧ r.2.mem ((c : Thread nD τ).loc main_v7_1) = newTarget m c
      ∧ r.2.mem ((c : Thread nD τ).loc main_v7_2) = outputGate m c
      ∧ r.2.mem ((c : Thread nD τ).loc main_v7_3) = decayRate m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_state m c), (h c).2.1.trans (final_target m c),
      (h c).2.2.1.trans (final_gate m c), (h c).2.2.2.1.trans (final_decay m c), (h c).2.2.2.2⟩)
    (run_blocks m ρ)

end Cert.KernelIdeal.Arrays

end
-- ==== Proof.lean ====
/- A gated recurrent cell with seven gates, each a two-layer perceptron of the joined input: the kernel against its
   reference, over the extended reals.

   Both programs join the two inputs x and h into one array v of 8192 rows. Gate g's pre-activation for row r at unit k is
       pre(g, r, k) = Σ_h tanh (Σ_d W1(g, h, d) · v(r, d) + b1(g, h)) · W2(g, h, k) + b2(g, k),
   and the four results are, entry by entry,  σ(pre 1) · c + σ(pre 0) · tanh (pre 5),  σ(pre 3) · c' + σ(pre 2) · tanh (pre 5),
   σ(pre 4)  and  softplus (pre 6)  (Proof/GateSpec.lean).

   The reference forms all seven gates with two contractions over stacked arrays and slices the stack (Proof/RefCell.lean).
   The kernel works through the rows 64 at a time: for each gate it multiplies the tile of v by the gate's transposed
   first weights, adds the bias, takes tanh, multiplies by the second weights and adds the second bias
   (Proof/KernelTile.lean, Proof/KernelBlocks.lean); the 128 tiles it writes cover each result array
   (Proof/KernelArrays.lean). Over the extended reals a change of float format is the identity and a matrix product is the
   plain sum of products, so the two sides are the same sums, the first contraction's factors in the other order; σ as the
   quotient 1 / (1 + e^(-x)) is the logistic function, and the guard "x ≠ x" in softplus is never on. No law used here
   needs the inputs finite.

   The kernel was idealized with no rewrite, so that claim is trivial; the frames of the two kernel programs are the
   generated ones, and the reference's frame is its generated run with the results dropped. -/
import proofs.«162500_j74938589381016_2_alg».proof.Defs
import proofs.«162500_j74938589381016_2_alg».proof.Proof.Gen.Kernel
import proofs.«162500_j74938589381016_2_alg».proof.Proof.Gen.Kernel.Skeleton
import proofs.«162500_j74938589381016_2_alg».proof.Proof.Gen.Kernel.Launch
import proofs.«162500_j74938589381016_2_alg».proof.Proof.Gen.Kernel.Points
import proofs.«162500_j74938589381016_2_alg».proof.Proof.Gen.Kernel.Frame
import proofs.«162500_j74938589381016_2_alg».proof.Proof.Gen.KernelIdeal
import proofs.«162500_j74938589381016_2_alg».proof.Proof.Gen.KernelIdeal.Skeleton
import proofs.«162500_j74938589381016_2_alg».proof.Proof.Gen.KernelIdeal.Launch
import proofs.«162500_j74938589381016_2_alg».proof.Proof.Gen.KernelIdeal.Points
import proofs.«162500_j74938589381016_2_alg».proof.Proof.Gen.KernelIdeal.Frame
import proofs.«162500_j74938589381016_2_alg».proof.Proof.Gen.ReferenceIdeal
import proofs.«162500_j74938589381016_2_alg».proof.Proof.Gen.Pre_finite_inputs
import proofs.«162500_j74938589381016_2_alg».proof.Proof.Gen.KernelIdeal.Value
import proofs.«162500_j74938589381016_2_alg».proof.Proof.Gen.ReferenceIdeal.Run
import proofs.«162500_j74938589381016_2_alg».proof.Proof.Gen.ReferenceIdeal.Read
import proofs.«162500_j74938589381016_2_alg».proof.Proof.RefCell
import proofs.«162500_j74938589381016_2_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- From memories agreeing on the arguments, the kernel's four result arrays and the reference's four results are the
    same four functions of the arguments. -/
theorem algebraic : Cert.algebraic_KernelIdeal_ReferenceIdeal := by
  intro m ρ m' ρ' _ hagree
  refine ⟨fun c => Cert.KernelIdeal.Arrays.newState m c, fun c => Cert.KernelIdeal.Arrays.newTarget m c,
    fun c => Cert.KernelIdeal.Arrays.outputGate m c, fun c => Cert.KernelIdeal.Arrays.decayRate m c,
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  obtain ⟨h0, h1, h2, h3, hrest⟩ := h c
  refine ⟨h0.trans ?_, h1.trans ?_, h2.trans ?_, h3.trans ?_, hrest⟩
  · refine (Cert.ReferenceIdeal.Read.val_main_v59_eq _ _ _ _ _ _ _).trans
      ((Cert.ReferenceIdeal.Cell.result_new_state _ _ _ _ _ _ _).trans ?_)
    rw [a0, a1, a2, a4, a5, a6, a7]
    rfl
  · refine (Cert.ReferenceIdeal.Read.val_main_v62_eq _ _ _ _ _ _ _).trans
      ((Cert.ReferenceIdeal.Cell.result_new_target _ _ _ _ _ _ _).trans ?_)
    rw [a0, a1, a3, a4, a5, a6, a7]
    rfl
  · refine (Cert.ReferenceIdeal.Read.val_main_v50_eq _ _ _ _ _ _).trans
      ((Cert.ReferenceIdeal.Cell.result_out_gate _ _ _ _ _ _).trans ?_)
    rw [a0, a1, a4, a5, a6, a7]
    rfl
  · refine (Cert.ReferenceIdeal.Read.val_main_v56_eq m' c).trans
      ((Cert.ReferenceIdeal.Cell.result_decay _ _ _ _ _ _).trans ?_)
    rw [a0, a1, a4, a5, a6, a7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
